-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x500 .f32) (main_arg1 : IVec S2x1600000 32) (main_arg2 : FVec F S500x128 .f32) (main_arg3 : FVec F S128 .f32) (main_arg4 : FVec F S128x40 .f32) (main_arg5 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x500 : Shape := ⟨2, ![5000, 500]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x40, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x40, .f32⟩
  | .hbm, ⟨74, _⟩ => ⟨S1700000x40, .f32⟩
  | .hbm, ⟨75, _⟩ => ⟨S1700000x40, .f32⟩
  | .hbm, ⟨76, _⟩ => ⟨S_, .f32⟩
  | .hbm, ⟨77, _⟩ => ⟨S100000x40, .f32⟩
  | .hbm, ⟨78, _⟩ => ⟨S1700000x1, .i32⟩
  | .hbm, ⟨79, _⟩ => ⟨S100000x40, .f32⟩
  | .hbm, ⟨80, _⟩ => ⟨S1x40, .f32⟩
  | .hbm, ⟨81, _⟩ => ⟨S100000x40, .f32⟩
  | .local _ .vmem, ⟨0, _⟩ => ⟨S5000x500, .f32⟩
  | .local _ .vmem, ⟨1, _⟩ => ⟨S5000x500, .f32⟩
  | .local _ .vmem, ⟨2, _⟩ => ⟨S500x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x500_S5000x500_0_0 : ∀ a, (![0, 0] : Fin 2 → Nat) a + S5000x500.size a ≤ S5000x500.size a
  h_S5000x500 : 0 < S5000x500.numel
  inb_S500x128_S500x128_0_0 : ∀ a, (![0, 0] : Fin 2 → Nat) a + S500x128.size a ≤ S500x128.size a
  h_S500x128 : 0 < S500x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x500_S500x128_S5000x128_1_0_0_1_n_n_wf : DotDims.WF S5000x500 S500x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S100000x500.size a
  hwx0_0 : ∀ i : grid0.Coords, EltTy.bits .f32 = 32 ∨ (Rect.block (s := S100000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x500_S500x128_S5000x128_1_0_0_1_n_n : DotDims S5000x500 S500x128 S5000x128 where
  lhsContracting := [1]
  rhsContracting := [0]
  lhsNonContracting := [0]
  rhsNonContracting := [1]
  lhsBatch := []
  rhsBatch := []
  wf := dot_S5000x500_S500x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x40, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x40, .f32⟩
  | .hbm, ⟨79, _⟩ => ⟨S1700000x40, .f32⟩
  | .hbm, ⟨80, _⟩ => ⟨S1700000x40, .f32⟩
  | .hbm, ⟨81, _⟩ => ⟨S_, .f32⟩
  | .hbm, ⟨82, _⟩ => ⟨S100000x40, .f32⟩
  | .hbm, ⟨83, _⟩ => ⟨S1700000x1, .i32⟩
  | .hbm, ⟨84, _⟩ => ⟨S100000x40, .f32⟩
  | .hbm, ⟨85, _⟩ => ⟨S1x40, .f32⟩
  | .hbm, ⟨86, _⟩ => ⟨S100000x40, .f32⟩
  | .hbm, ⟨87, _⟩ => ⟨S100000x40, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x40, .f32⟩
  | .hbm, ⟨95, _⟩ => ⟨S100000x40, .f32⟩
  | .hbm, ⟨96, _⟩ => ⟨S100000x40, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S100000x1, .f32⟩
  | .hbm, ⟨101, _⟩ => ⟨S100000x40, .f32⟩
  | .hbm, ⟨102, _⟩ => ⟨S100000x40, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_call2_cst_0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_cst_1 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_v64 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x128_S100000x128_1_0_0_1_n_n_wf : DotDims.WF S100000x500 S500x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel program's run, with its result named.

  The program is eight segments: three stretches of host operations, the first pipelined region (a product of
  row blocks with a weight), a stretch of host operations, the second region (bias, clip, product), another
  stretch, and the third region (bias and row-wise log-softmax).  The buffer contents at each boundary are a
  fold of the segments over the launch contents; every weakly fair execution ends with every unscoped buffer at
  the last fold's contents.  Read at the result buffer and at the six argument buffers this gives the run: the
  result holds what the fold leaves there, and the arguments are as launched.
-/
import proofs.«125573_j73478300500078_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument buffers end as launched. -/
theorem run_main : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«125573_j73478300500078_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.Region0.lean ====
/-
  The first region: a product of row blocks with a weight.

  The region's grid has twenty points.  At point t the body loads rows 5000·t … 5000·t + 4999 of the
  [100000, 500] input and the whole [500, 128] weight, multiplies them into a zero accumulator and stores the
  [5000, 128] product, which the pipeline writes back as rows 5000·t … 5000·t + 4999 of the output.  Entry (r, c)
  of a block's product is the sum over k of input (5000·t + r, k) times weight (k, c): the same sum the whole
  product of the input with the weight has at row 5000·t + r.  The twenty blocks tile the output, so the output
  array ends holding the whole product.
-/
import proofs.«125573_j73478300500078_2_alg».proof.Proof.Gen.KernelIdeal.Frame
import proofs.«125573_j73478300500078_2_alg».proof.Proof.LibRowOps
import proofs.«125573_j73478300500078_2_alg».proof.Proof.LibDense
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-- The dimension numbers of a plain [100000, 500] × [500, 128] product. -/
def dotAll : DotDims S100000x500 S500x128 S100000x128 where
  lhsContracting := [1]
  rhsContracting := [0]
  lhsNonContracting := [0]
  rhsNonContracting := [1]
  lhsBatch := []
  rhsBatch := []
  wf := by decide

theorem plainAll : Cert.RowOps.IsPlain dotAll := ⟨rfl, rfl, rfl, rfl, rfl, rfl⟩

theorem plainBlock : Cert.RowOps.IsPlain dot_S5000x500_S500x128_S5000x128_1_0_0_1_n_n := ⟨rfl, rfl, rfl, rfl, rfl, rfl⟩

/-- The whole product of the input with the weight, in the host's spelling. -/
def product (x : FVec Ideal S100000x500 .f32) (w : FVec Ideal S500x128 .f32) : FVec Ideal S100000x128 .f32 :=
  Host.dotGeneral (F := Ideal) dotAll none x w

theorem product_apply (x : FVec Ideal S100000x500 .f32) (w : FVec Ideal S500x128 .f32) (r : Fin 100000) (c : Fin 128) :
    product x w (ix2 r c) = ∑ k : Fin 500, x (ix2 r k) * w (ix2 k c) :=
  Cert.Dense.hostDot_apply plainAll none .single x w r c

/-- The body's stored value at (p, q): row p of the loaded rows against column q of the weight. -/
theorem payload_apply (x0 : Vec Ideal S5000x500 .f32) (x1 : Vec Ideal S500x128 .f32) (p : Fin 5000) (q : Fin 128) :
    k0_pay1 (F := Ideal) x0 x1 (ix2 p q) = ∑ k : Fin 500, x0 (ix2 p k) * x1 (ix2 k q) := by
  unfold k0_pay1
  exact Cert.RowOps.matmul_zero_apply plainBlock (some .fp32) x0 x1 p q

theorem hz : (![0, 0] : Fin 2 → Nat) = fun _ => 0 := funext fun a => by fin_cases a <;> rfl

/-- The printed index maps over the grid: the row windows move with the point, the weight's stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The input window's block at point t is rows 5000·t … of the input array. -/
theorem rows_apply (c : Dev nD) (t : Fin cfg0.N) (p : Fin 5000) (k : Fin 500) (r : Fin 100000)
    (hr : r.val = t.val * 5000 + p.val) :
    (iblk0 V c 0 t : Vec Ideal S5000x500 .f32) (ix2 p k) = (V c main_arg0 : S100000x500.Idx → EReal) (ix2 r k) := by
  obtain ⟨e0, e1, -, -, -, -⟩ := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 500 + 1 * k.val = k.val; rw [e1]; omega

/-- The weight window's block at every point is the weight array. -/
theorem weight_apply (c : Dev nD) (t : Fin cfg0.N) (k : Fin 500) (q : Fin 128) :
    (iblk0 V c 1 t : Vec Ideal S500x128 .f32) (ix2 k q) = (V c main_arg2 : S500x128.Idx → EReal) (ix2 k q) := by
  obtain ⟨-, -, e2, e3, -, -⟩ := idx_facts t
  unfold iblk0
  rw [View.read_apply]
  show V c main_arg2 _ = V c main_arg2 _
  refine congrArg _ (funext fun a => Fin.ext ?_)
  match a with
  | ⟨0, _⟩ => show win0_1.index t (0 : Fin 2) * 500 + 1 * k.val = k.val; rw [e2]; omega
  | ⟨1, _⟩ => show win0_1.index t (1 : Fin 2) * 128 + 1 * q.val = q.val; rw [e3]; omega

/-- What point t writes back is block t of the whole product. -/
theorem flushed_eq (c : Dev nD) (t : Fin cfg0.N) :
    (dat0 V c).flushed 2 t = ((cfg0.win 2).blk t).view.read (Elt Ideal) (product (V c main_arg0) (V c main_arg2)) := by
  have hN : cfg0.N = 20 := N_0
  have ht : t.val < 20 := hN ▸ t.isLt
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S5000x500) hz, View.ld_unit_zero (S := S500x128) hz]
  funext j
  obtain ⟨p, q, rfl⟩ : ∃ (p : Fin 5000) (q : Fin 128), j = ix2 p q := ⟨j 0, j 1, eq_ix2 j⟩
  rw [View.read_apply]
  have hemb : ((cfg0.win 2).blk t).view.emb (ix2 p q) = ix2 (⟨t.val * 5000 + p.val, by omega⟩ : Fin 100000) q :=
    funext fun a => Fin.ext (by
      match a with
      | ⟨0, _⟩ => show win0_2.index t (0 : Fin 2) * 5000 + 1 * p.val = t.val * 5000 + p.val; rw [e4]; omega
      | ⟨1, _⟩ => show win0_2.index t (1 : Fin 2) * 128 + 1 * q.val = q.val; rw [e5]; omega)
  rw [hemb]
  refine (payload_apply _ _ p q).trans ?_
  refine Eq.trans ?_ (product_apply _ _ _ q).symm
  refine Finset.sum_congr rfl fun k _ => ?_
  rw [rows_apply V c t p k ⟨t.val * 5000 + p.val, by omega⟩ rfl, weight_apply V c t k q]

/-- An index of the output is in point t's block iff each coordinate is in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row of the output is in the block of the point its row number divided by 5000 names. -/
theorem cover (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4]; show (i 0).val / 5000 * 5000 ≤ (i 0).val ∧ (i 0).val < (i 0).val / 5000 * 5000 + 5000; omega
  | ⟨1, _⟩ =>
    show win0_2.index t (1 : Fin 2) * 128 ≤ (i 1).val ∧ (i 1).val < win0_2.index t (1 : Fin 2) * 128 + 128
    rw [e5]; omega

/-- The output array after the region is the whole product of the input and weight arrays as the region found them. -/
theorem final (c : Dev nD) :
    (dat0 V c).arrAt 2 cfg0.N = product (V c main_arg0) (V c main_arg2) :=
  (dat0 V c).arrAt_eq_of_cover 2 (product (V c main_arg0) (V c main_arg2)) (fun t _ => flushed_eq V c t) cover

end Cert.KernelIdeal.Region0

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«125573_j73478300500078_2_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.Region1.lean ====
/-
  The second region: bias, clip at zero, and a product with a weight, on row blocks.

  The region's grid has twenty points.  At point t the body loads rows 5000·t … 5000·t + 4999 of the
  [100000, 128] input, the one-row [1, 128] bias and the whole [128, 40] weight; it adds the bias row to every
  loaded row, takes the maximum with zero, multiplies by the weight into a zero accumulator and stores the
  [5000, 40] product, which the pipeline writes back as rows 5000·t … of the output.  Entry (r, c) of a block
  is the sum over k of max(input(5000·t + r, k) + bias(0, k), 0) · weight(k, c): the entry at row 5000·t + r of
  the same layer applied to the whole input.  The twenty blocks tile the output.
-/
import proofs.«125573_j73478300500078_2_alg».proof.Proof.Gen.KernelIdeal.Frame
import proofs.«125573_j73478300500078_2_alg».proof.Proof.LibRowOps
import proofs.«125573_j73478300500078_2_alg».proof.Proof.LibDense
import proofs.«125573_j73478300500078_2_alg».proof.Proof.LibHostRowOps
import Idealize.ShloMosaic.Lib.Pipeline.Value
import Idealize.ShloMosaic.Lib.ValueLayout
import Idealize.ShloMosaic.Lib.IdealHost

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-- The dimension numbers of a plain [100000, 128] × [128, 40] product. -/
def dotAll : DotDims S100000x128 S128x40 S100000x40 where
  lhsContracting := [1]
  rhsContracting := [0]
  lhsNonContracting := [0]
  rhsNonContracting := [1]
  lhsBatch := []
  rhsBatch := []
  wf := by decide

theorem plainAll : Cert.RowOps.IsPlain dotAll := ⟨rfl, rfl, rfl, rfl, rfl, rfl⟩

theorem plainBlock : Cert.RowOps.IsPlain dot_S5000x128_S128x40_S5000x40_1_0_0_1_n_n := ⟨rfl, rfl, rfl, rfl, rfl, rfl⟩

/-- A [1, 128] row repeats along 100000 rows; a scalar fills a [100000, 128] array. -/
theorem rowBc : S1x128.BroadcastsInDim S100000x128 ![0, 1] := by decide
theorem fillBc : S_.BroadcastsInDim S100000x128 ![] := by decide

/-- The layer over the whole input, in the host's spelling: the bias row repeated over the rows and added, the
    maximum with a zero array, the product with the weight. -/
def layer (a : FVec Ideal S100000x128 .f32) (row : FVec Ideal S1x128 .f32) (w : FVec Ideal S128x40 .f32) :
    FVec Ideal S100000x40 .f32 :=
  Host.dotGeneral (F := Ideal) dotAll none
    (maximumf (addf a (broadcastInDim S100000x128 ![0, 1] rowBc row))
      (broadcastInDim S100000x128 ![] fillBc (constant (F := Ideal) S_ .f32 0x00000000#32))) w

theorem layer_apply (a : FVec Ideal S100000x128 .f32) (row : FVec Ideal S1x128 .f32) (w : FVec Ideal S128x40 .f32)
    (r : Fin 100000) (c : Fin 40) :
    layer a row w (ix2 r c) = ∑ k : Fin 128, max (a (ix2 r k) + row (ix2 (0 : Fin 1) k)) Cert.Dense.z * w (ix2 k c) := by
  unfold layer
  refine (Cert.Dense.hostDot_apply plainAll none .single _ w r c).trans (Finset.sum_congr rfl fun k _ => ?_)
  rw [maximumf_apply, addf_apply, Cert.HostRowOps.rowToMat_apply, broadcastInDim_scalar_apply, constant_apply]

/-- The body's stored value at (p, q). -/
theorem payload_apply (x0 : Vec Ideal S5000x128 .f32) (x1 : Vec Ideal S1x128 .f32) (x2 : Vec Ideal S128x40 .f32)
    (p : Fin 5000) (q : Fin 40) :
    k1_pay1 (F := Ideal) x0 x1 x2 (ix2 p q)
      = ∑ k : Fin 128, max (x0 (ix2 p k) + x1 (ix2 (0 : Fin 1) k)) Cert.Dense.z * x2 (ix2 k q) := by
  unfold k1_pay1
  refine (Cert.RowOps.matmul_zero_apply plainBlock (some .fp32) _ x2 p q).trans (Finset.sum_congr rfl fun k _ => ?_)
  rw [maximumf_apply, addf_apply, shapeCast_self, shapeCast_self, broadcastTo_1b_ab_apply, broadcast_apply]
  rfl

theorem hz : (![0, 0] : Fin 2 → Nat) = fun _ => 0 := funext fun a => by fin_cases a <;> rfl

/-- The printed index maps over the grid: the row windows move with the point, the others stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The input window's block at point t is rows 5000·t … of the input array. -/
theorem rows_apply (c : Dev nD) (t : Fin cfg1.N) (p : Fin 5000) (k : Fin 128) (r : Fin 100000)
    (hr : r.val = t.val * 5000 + p.val) :
    (iblk1 V c 0 t : Vec Ideal S5000x128 .f32) (ix2 p k) = (V c main_v43 : S100000x128.Idx → EReal) (ix2 r k) := by
  obtain ⟨e0, e1, -, -, -, -, -, -⟩ := idx_facts t
  unfold iblk1
  rw [View.read_apply]
  show V c main_v43 _ = V c main_v43 _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias window's block at every point is the bias row. -/
theorem bias_apply (c : Dev nD) (t : Fin cfg1.N) (u : Fin 1) (k : Fin 128) :
    (iblk1 V c 1 t : Vec Ideal S1x128 .f32) (ix2 u k) = (V c main_v44 : S1x128.Idx → EReal) (ix2 u k) := by
  obtain ⟨-, -, e2, e3, -, -, -, -⟩ := idx_facts t
  unfold iblk1
  rw [View.read_apply]
  show V c main_v44 _ = V c main_v44 _
  refine congrArg _ (funext fun a => Fin.ext ?_)
  match a with
  | ⟨0, _⟩ => show win1_1.index t (0 : Fin 2) * 1 + 1 * u.val = u.val; rw [e2]; omega
  | ⟨1, _⟩ => show win1_1.index t (1 : Fin 2) * 128 + 1 * k.val = k.val; rw [e3]; omega

/-- The weight window's block at every point is the weight array. -/
theorem weight_apply (c : Dev nD) (t : Fin cfg1.N) (k : Fin 128) (q : Fin 40) :
    (iblk1 V c 2 t : Vec Ideal S128x40 .f32) (ix2 k q) = (V c main_arg4 : S128x40.Idx → EReal) (ix2 k q) := by
  obtain ⟨-, -, -, -, e4, e5, -, -⟩ := idx_facts t
  unfold iblk1
  rw [View.read_apply]
  show V c main_arg4 _ = V c main_arg4 _
  refine congrArg _ (funext fun a => Fin.ext ?_)
  match a with
  | ⟨0, _⟩ => show win1_2.index t (0 : Fin 2) * 128 + 1 * k.val = k.val; rw [e4]; omega
  | ⟨1, _⟩ => show win1_2.index t (1 : Fin 2) * 40 + 1 * q.val = q.val; rw [e5]; omega

/-- What point t writes back is block t of the layer over the whole input. -/
theorem flushed_eq (c : Dev nD) (t : Fin cfg1.N) :
    (dat1 V c).flushed 3 t
      = ((cfg1.win 3).blk t).view.read (Elt Ideal) (layer (V c main_v43) (V c main_v44) (V c main_arg4)) := by
  have hN : cfg1.N = 20 := N_1
  have ht : t.val < 20 := hN ▸ t.isLt
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x40) hz]
  funext j
  obtain ⟨p, q, rfl⟩ : ∃ (p : Fin 5000) (q : Fin 40), j = ix2 p q := ⟨j 0, j 1, eq_ix2 j⟩
  rw [View.read_apply]
  have hemb : ((cfg1.win 3).blk t).view.emb (ix2 p q) = ix2 (⟨t.val * 5000 + p.val, by omega⟩ : Fin 100000) q :=
    funext fun a => Fin.ext (by
      match a with
      | ⟨0, _⟩ => show win1_3.index t (0 : Fin 2) * 5000 + 1 * p.val = t.val * 5000 + p.val; rw [e6]; omega
      | ⟨1, _⟩ => show win1_3.index t (1 : Fin 2) * 40 + 1 * q.val = q.val; rw [e7]; omega)
  rw [hemb]
  refine (payload_apply _ _ _ p q).trans ?_
  refine Eq.trans ?_ (layer_apply _ _ _ _ q).symm
  refine Finset.sum_congr rfl fun k _ => ?_
  rw [rows_apply V c t p k ⟨t.val * 5000 + p.val, by omega⟩ rfl, bias_apply V c t 0 k, weight_apply V c t k q]

/-- An index of the output is in point t's block iff each coordinate is in the block's range. -/
theorem mem_blk (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v45).slice (win1_3.rect t)).set ↔ _
  rw [View.set_slice_whole, Rect.mem_set_unit]
  exact Iff.rfl

/-- Every row of the output is in the block of the point its row number divided by 5000 names. -/
theorem cover (i : S100000x40.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 40 := (i 1).isLt
  let t : Fin cfg1.N := ⟨(i 0).val / 5000, by rw [hN]; omega⟩
  obtain ⟨-, -, -, -, -, -, e6, e7⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e6]; show (i 0).val / 5000 * 5000 ≤ (i 0).val ∧ (i 0).val < (i 0).val / 5000 * 5000 + 5000; omega
  | ⟨1, _⟩ =>
    show win1_3.index t (1 : Fin 2) * 40 ≤ (i 1).val ∧ (i 1).val < win1_3.index t (1 : Fin 2) * 40 + 40
    rw [e7]; omega

/-- The output array after the region is the layer over the input, bias row and weight arrays as the region found them. -/
theorem final (c : Dev nD) :
    (dat1 V c).arrAt 3 cfg1.N = layer (V c main_v43) (V c main_v44) (V c main_arg4) :=
  (dat1 V c).arrAt_eq_of_cover 3 (layer (V c main_v43) (V c main_v44) (V c main_arg4)) (fun t _ => flushed_eq V c t) cover

end Cert.KernelIdeal.Region1

end
-- ==== Proof.LibRowLogSoftmax.lean ====
/-
  A row-wise log-softmax of an [a, b] vector, read at one index on the extended reals.

  A kernel body that normalises the rows of an [a, b] vector L to log-probabilities takes the maximum m of each row
  (a reduction along the second axis, viewed as an [a, 1] column and repeated along the row), exponentiates L - m,
  sums each row, takes the logarithm of the sum, adds it to m, repeats that column along the row and subtracts it
  from L.  At (p, q) this is L(p, q) - (m_p + log Σ_k exp(L(p, k) - m_p)), where m_p is the fold of `max` over row p
  from the value of the starting word.  Every step only moves coordinates or acts entry by entry, so no entry has to
  be finite.
-/
import Idealize.ShloMosaic.PureOps.Ideal.Laws
import Idealize.ShloMosaic.Lib.ValueIdx
import Idealize.ShloMosaic.Lib.Pipeline.Value
import proofs.«125573_j73478300500078_2_alg».proof.Proof.LibRowOps

noncomputable section

namespace Cert.RowLogSoftmax

open Idealize.ShloMosaic Idealize.ShloMosaic.ValueIdx Cert.RowOps

variable {a b : Nat}

/-- The maximum of row p of L, folded from the value of the word the reduction starts from. -/
def rowMaxFrom (acc : BitVec (FTy.f32).bits) (L : FVec Ideal ⟨2, ![a, b]⟩ .f32) (p : Fin a) : EReal :=
  (Finset.univ : Finset (Fin b)).fold max (Ideal.ofBits .f32 acc) (fun k => L (ix2 p k))

theorem exp_apply {s : Shape} {φ : FTy} (x : FVec Ideal s φ) (i : s.Idx) : exp x i = Ideal.exp (x i) := rfl

theorem log_apply {s : Shape} {φ : FTy} (x : FVec Ideal s φ) (i : s.Idx) : log x i = Ideal.log (x i) := rfl

/-- The row maximum as an [a, 1] column repeated along the row reads, at (p, k), the maximum of row p. -/
theorem maxColumn_apply (L : FVec Ideal ⟨2, ![a, b]⟩ .f32) (accM : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (p : Fin a) (k : Fin b) :
    broadcastTo ⟨2, ![a, b]⟩ (shapeCast ⟨2, ![a, 1]⟩ (multiReduction .maximumf [1] ⟨1, ![a]⟩ L accM hr hφ hM) hc) hb (ix2 p k)
      = rowMaxFrom accM L p := by
  rw [spread_apply, column_apply, rowMax_apply]
  rfl

/-- The log-softmax in the kernel's spelling at (p, q). -/
theorem kernel_apply (L : FVec Ideal ⟨2, ![a, b]⟩ .f32) (accM accS : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (hS : accS = FKind.add.neutral .f32 hφ)
    (p : Fin a) (q : Fin b) :
    subf L (broadcastTo ⟨2, ![a, b]⟩
        (addf (shapeCast ⟨2, ![a, 1]⟩ (multiReduction .maximumf [1] ⟨1, ![a]⟩ L accM hr hφ hM) hc)
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L accM hr hφ hM) hc) hb)))
            accS hr hφ hS) hc))) hb) (ix2 p q)
      = L (ix2 p q) - (rowMaxFrom accM L p + Ideal.log (∑ k : Fin b, Ideal.exp (L (ix2 p k) - rowMaxFrom accM L p))) := by
  rw [subf_apply, spread_apply, addf_apply, column_apply, rowMax_apply, log_apply, column_apply, rowSum_apply]
  refine congrArg (fun s => L (ix2 p q) - (rowMaxFrom accM L p + Ideal.log s)) (Finset.sum_congr rfl fun k _ => ?_)
  rw [exp_apply, subf_apply, maxColumn_apply]

end Cert.RowLogSoftmax

end
-- ==== Proof.LibRowLogSoftmaxShift.lean ====
/-
  A row-wise log-softmax in the "subtract the maximum first" spelling, read at one index on the extended reals.

  A kernel body that normalises the rows of an [a, b] vector L to log-probabilities may first subtract from every
  row its maximum m (a reduction along the second axis, viewed as an [a, 1] column and repeated along the row),
  giving the shifted rows S = L - m; then exponentiate S, sum each row, take the logarithm of the sum, repeat that
  column along the row and subtract it from S.  At (p, q) this is (L(p, q) - m_p) - log Σ_k exp(L(p, k) - m_p),
  where m_p is the fold of `max` over row p from the value of the starting word.  Every step only moves
  coordinates or acts entry by entry, so no entry has to be finite.
-/
import Idealize.ShloMosaic.PureOps.Ideal.Laws
import Idealize.ShloMosaic.Lib.ValueIdx
import Idealize.ShloMosaic.Lib.Pipeline.Value
import proofs.«125573_j73478300500078_2_alg».proof.Proof.LibRowOps
import proofs.«125573_j73478300500078_2_alg».proof.Proof.LibRowLogSoftmax

noncomputable section

namespace Cert.RowLogSoftmaxShift

open Idealize.ShloMosaic Idealize.ShloMosaic.ValueIdx Cert.RowOps Cert.RowLogSoftmax

variable {a b : Nat}

/-- The rows with their maximum subtracted, in the kernel's spelling, at (p, k). -/
theorem shifted_apply (L : FVec Ideal ⟨2, ![a, b]⟩ .f32) (accM : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (p : Fin a) (k : Fin b) :
    subf L (broadcastTo ⟨2, ![a, b]⟩ (shapeCast ⟨2, ![a, 1]⟩ (multiReduction .maximumf [1] ⟨1, ![a]⟩ L accM hr hφ hM) hc) hb) (ix2 p k)
      = L (ix2 p k) - rowMaxFrom accM L p := by
  rw [subf_apply, maxColumn_apply]

/-- The log-softmax in the kernel's "subtract the maximum first" spelling at (p, q). -/
theorem kernel_apply (L : FVec Ideal ⟨2, ![a, b]⟩ .f32) (accM accS : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (hS : accS = FKind.add.neutral .f32 hφ)
    (p : Fin a) (q : Fin b) :
    subf (subf L (broadcastTo ⟨2, ![a, b]⟩ (shapeCast ⟨2, ![a, 1]⟩ (multiReduction .maximumf [1] ⟨1, ![a]⟩ L accM hr hφ hM) hc) hb))
        (broadcastTo ⟨2, ![a, b]⟩
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L accM hr hφ hM) hc) hb)))
            accS hr hφ hS) hc)) hb) (ix2 p q)
      = (L (ix2 p q) - rowMaxFrom accM L p) - Ideal.log (∑ k : Fin b, Ideal.exp (L (ix2 p k) - rowMaxFrom accM L p)) := by
  rw [subf_apply, shifted_apply, spread_apply, log_apply, column_apply, rowSum_apply]
  refine congrArg (fun s => (L (ix2 p q) - rowMaxFrom accM L p) - Ideal.log s) (Finset.sum_congr rfl fun k _ => ?_)
  rw [exp_apply, shifted_apply]

/-- Taking the maximum once more with the value the fold started from changes nothing. -/
theorem max_rowMaxFrom (accM : BitVec (FTy.f32).bits) (L : FVec Ideal ⟨2, ![a, b]⟩ .f32) (p : Fin a) :
    max (Ideal.ofBits .f32 accM) (rowMaxFrom accM L p) = rowMaxFrom accM L p :=
  max_eq_right ((Finset.le_fold_max _).mpr (Or.inl le_rfl))

end Cert.RowLogSoftmaxShift

end
-- ==== Proof.Region2.lean ====
/-
  The third region: a bias row added and a row-wise log-softmax, on row blocks.

  The region's grid has ten points.  At point t the body loads rows 10000·t … 10000·t + 9999 of the [100000, 40]
  input and the one-row [1, 40] bias, adds the bias row to every loaded row, subtracts from each row its maximum,
  and subtracts from that the logarithm of the row's sum of exponentials; the pipeline writes the [10000, 40]
  result back as rows 10000·t … of the output.  Every step acts on one row at a time, so row p of a block is the
  log-softmax of row 10000·t + p of the whole biased input; the host's spelling of the same normalisation takes
  the row maximum once more with −∞ and starts the sum from zero, neither of which changes a value.  The ten
  blocks tile the output.
-/
import proofs.«125573_j73478300500078_2_alg».proof.Proof.Gen.KernelIdeal.Frame
import proofs.«125573_j73478300500078_2_alg».proof.Proof.LibRowOps
import proofs.«125573_j73478300500078_2_alg».proof.Proof.LibHostRowOps
import proofs.«125573_j73478300500078_2_alg».proof.Proof.LibRowLogSoftmax
import proofs.«125573_j73478300500078_2_alg».proof.Proof.LibRowLogSoftmaxShift
import Idealize.ShloMosaic.Lib.Pipeline.Value
import Idealize.ShloMosaic.Lib.ValueLayout
import Idealize.ShloMosaic.Lib.IdealHost

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open Cert.RowLogSoftmax (rowMaxFrom)

abbrev S100000x1 : Shape := ⟨2, ![100000, 1]⟩

theorem rowBc : S1x40.BroadcastsInDim S100000x40 ![0, 1] := by decide
theorem fillVec : S_.BroadcastsInDim S100000 ![] := by decide
theorem vecCol : S100000.BroadcastsInDim S100000x1 ![0] := by decide
theorem colMat : S100000x1.BroadcastsInDim S100000x40 ![0, 1] := by decide
theorem redTo : S100000x40.ReducesTo [1] S100000 := by decide
theorem red : S100000x40.Reduces [1] S100000 := by decide
theorem hS : 0 < S_.numel := by decide

/-- The rows with their maximum subtracted, in the host's spelling. -/
def shift (z : FVec Ideal S100000x40 .f32) : FVec Ideal S100000x40 .f32 :=
  subf z (broadcastInDim S100000x40 ![0, 1] colMat (broadcastInDim S100000x1 ![0] vecCol
    (maximumf (broadcastInDim S100000 ![] fillVec (constant (F := Ideal) S_ .f32 0xFF800000#32))
      (Host.reduce (FloatOps.maximumf (F := Ideal) (φ := .f32)) z (constant (F := Ideal) S_ .f32 0xFF800000#32) redTo hS))))

/-- The row-wise log-softmax, in the host's spelling. -/
def logSoftmax (z : FVec Ideal S100000x40 .f32) : FVec Ideal S100000x40 .f32 :=
  subf (shift z) (broadcastInDim S100000x40 ![0, 1] colMat (Host.log (broadcastInDim S100000x1 ![0] vecCol
    (Host.reduceAdd (F := Ideal) (Host.exp (shift z)) (constant (F := Ideal) S_ .f32 0x00000000#32) redTo hS))))

/-- The bias row repeated over the rows and added. -/
def biased (a : FVec Ideal S100000x40 .f32) (row : FVec Ideal S1x40 .f32) : FVec Ideal S100000x40 .f32 :=
  addf a (broadcastInDim S100000x40 ![0, 1] rowBc row)

/-- The whole head: bias, then log-softmax. -/
def head (a : FVec Ideal S100000x40 .f32) (row : FVec Ideal S1x40 .f32) : FVec Ideal S100000x40 .f32 :=
  logSoftmax (biased a row)

theorem biased_apply (a : FVec Ideal S100000x40 .f32) (row : FVec Ideal S1x40 .f32) (r : Fin 100000) (k : Fin 40) :
    biased a row (ix2 r k) = a (ix2 r k) + row (ix2 (0 : Fin 1) k) := by
  unfold biased
  rw [addf_apply, Cert.HostRowOps.rowToMat_apply]

theorem shift_apply (z : FVec Ideal S100000x40 .f32) (r : Fin 100000) (c : Fin 40) :
    shift z (ix2 r c) = z (ix2 r c) - rowMaxFrom 0xFF800000#32 z r := by
  unfold shift
  rw [subf_apply, Cert.HostRowOps.colToMat_apply, Cert.HostRowOps.vecToCol_apply, maximumf_apply,
    broadcastInDim_scalar_apply, constant_apply, Cert.HostRowOps.rowMax_apply z _ redTo red hS r, constant_apply]
  exact congrArg (z (ix2 r c) - ·) (Cert.RowLogSoftmaxShift.max_rowMaxFrom 0xFF800000#32 z r)

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

theorem logSoftmax_apply (z : FVec Ideal S100000x40 .f32) (r : Fin 100000) (c : Fin 40) :
    logSoftmax z (ix2 r c)
      = (z (ix2 r c) - rowMaxFrom 0xFF800000#32 z r)
        - Ideal.log (∑ k : Fin 40, Ideal.exp (z (ix2 r k) - rowMaxFrom 0xFF800000#32 z r)) := by
  unfold logSoftmax
  rw [subf_apply, Cert.HostRowOps.colToMat_apply, hostLog_apply, Cert.HostRowOps.vecToCol_apply,
    Cert.HostRowOps.rowSum_apply _ _ redTo red hS r, constant_apply, Ideal.ofBits_zero_f32, zero_add, shift_apply]
  refine congrArg (fun s => (z (ix2 r c) - rowMaxFrom 0xFF800000#32 z r) - Ideal.log s) (Finset.sum_congr rfl fun k _ => ?_)
  rw [hostExp_apply, shift_apply]

/-- The body's stored value at (p, q), over the biased block Z = rows + bias row. -/
theorem payload_apply (x0 : Vec Ideal S10000x40 .f32) (x1 : Vec Ideal S1x40 .f32) (p : Fin 10000) (q : Fin 40) :
    k2_pay1 (F := Ideal) x0 x1 (ix2 p q)
      = ((addf (shapeCast S10000x40 x0 shapeCasts_S10000x40_S10000x40)
            (broadcastTo S10000x40 (shapeCast S1x40 x1 shapeCasts_S1x40_S1x40) broadcasts_S1x40_S10000x40) : FVec Ideal S10000x40 .f32) (ix2 p q)
          - rowMaxFrom 0xFF800000#32 (addf (shapeCast S10000x40 x0 shapeCasts_S10000x40_S10000x40)
            (broadcastTo S10000x40 (shapeCast S1x40 x1 shapeCasts_S1x40_S1x40) broadcasts_S1x40_S10000x40)) p)
        - Ideal.log (∑ k : Fin 40, Ideal.exp ((addf (shapeCast S10000x40 x0 shapeCasts_S10000x40_S10000x40)
            (broadcastTo S10000x40 (shapeCast S1x40 x1 shapeCasts_S1x40_S1x40) broadcasts_S1x40_S10000x40) : FVec Ideal S10000x40 .f32) (ix2 p k)
          - rowMaxFrom 0xFF800000#32 (addf (shapeCast S10000x40 x0 shapeCasts_S10000x40_S10000x40)
            (broadcastTo S10000x40 (shapeCast S1x40 x1 shapeCasts_S1x40_S1x40) broadcasts_S1x40_S10000x40)) p)) := by
  unfold k2_pay1
  exact Cert.RowLogSoftmaxShift.kernel_apply _ 0xFF800000#32 0x00000000#32 reduces_S10000x40_S10000
    shapeCasts_S10000_S10000x1 broadcasts_S10000x1_S10000x40 (.inl rfl) rfl rfl p q

/-- The biased block at (p, k). -/
theorem blockBiased_apply (x0 : Vec Ideal S10000x40 .f32) (x1 : Vec Ideal S1x40 .f32) (p : Fin 10000) (k : Fin 40) :
    (addf (shapeCast S10000x40 x0 shapeCasts_S10000x40_S10000x40)
      (broadcastTo S10000x40 (shapeCast S1x40 x1 shapeCasts_S1x40_S1x40) broadcasts_S1x40_S10000x40) : FVec Ideal S10000x40 .f32) (ix2 p k)
      = x0 (ix2 p k) + x1 (ix2 (0 : Fin 1) k) := by
  rw [addf_apply, shapeCast_self, shapeCast_self, broadcastTo_1b_ab_apply]

/-- One entry of a block: if row p of the loaded rows is row r of the input and the loaded bias row is the bias
    row, the body's stored value at (p, q) is the head over the whole input at (r, q). -/
theorem point_eq (x0 : Vec Ideal S10000x40 .f32) (x1 : Vec Ideal S1x40 .f32)
    (A : FVec Ideal S100000x40 .f32) (B : FVec Ideal S1x40 .f32) (p : Fin 10000) (q : Fin 40) (r : Fin 100000)
    (h0 : ∀ k : Fin 40, x0 (ix2 p k) = A (ix2 r k))
    (h1 : ∀ k : Fin 40, x1 (ix2 (0 : Fin 1) k) = B (ix2 (0 : Fin 1) k)) :
    k2_pay1 (F := Ideal) x0 x1 (ix2 p q) = head A B (ix2 r q) := by
  -- the biased block's row p is the biased input's row r, entry by entry
  have hZ : ∀ k : Fin 40,
      (addf (shapeCast S10000x40 x0 shapeCasts_S10000x40_S10000x40)
        (broadcastTo S10000x40 (shapeCast S1x40 x1 shapeCasts_S1x40_S1x40) broadcasts_S1x40_S10000x40) : FVec Ideal S10000x40 .f32) (ix2 p k)
        = biased A B (ix2 r k) := fun k => by
    rw [blockBiased_apply, biased_apply, h0 k, h1 k]
  have hM : rowMaxFrom 0xFF800000#32 (addf (shapeCast S10000x40 x0 shapeCasts_S10000x40_S10000x40)
        (broadcastTo S10000x40 (shapeCast S1x40 x1 shapeCasts_S1x40_S1x40) broadcasts_S1x40_S10000x40)) p
      = rowMaxFrom 0xFF800000#32 (biased A B) r := by
    unfold rowMaxFrom
    exact congrArg (fun f => Finset.fold max (Ideal.ofBits .f32 0xFF800000#32) f (Finset.univ : Finset (Fin 40))) (funext hZ)
  refine (payload_apply x0 x1 p q).trans ?_
  unfold head
  rw [logSoftmax_apply, hM, hZ q]
  refine congrArg (fun s => _ - Ideal.log s) (Finset.sum_congr rfl fun k _ => ?_)
  rw [hZ k]

theorem hz : (![0, 0] : Fin 2 → Nat) = fun _ => 0 := funext fun a => by fin_cases a <;> rfl

/-- The printed index maps over the grid: the row windows move with the point, the bias row's stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The input window's block at point t is rows 10000·t … of the input array. -/
theorem rows_apply (c : Dev nD) (t : Fin cfg2.N) (p : Fin 10000) (k : Fin 40) (r : Fin 100000)
    (hr : r.val = t.val * 10000 + p.val) :
    (iblk2 V c 0 t : Vec Ideal S10000x40 .f32) (ix2 p k) = (V c main_v57 : S100000x40.Idx → EReal) (ix2 r k) := by
  obtain ⟨e0, e1, -, -, -, -⟩ := idx_facts t
  unfold iblk2
  rw [View.read_apply]
  show V c main_v57 _ = V c main_v57 _
  refine congrArg _ (funext fun a => Fin.ext ?_)
  match a with
  | ⟨0, _⟩ => show win2_0.index t (0 : Fin 2) * 10000 + 1 * p.val = r.val; rw [e0, hr]; omega
  | ⟨1, _⟩ => show win2_0.index t (1 : Fin 2) * 40 + 1 * k.val = k.val; rw [e1]; omega

/-- The bias window's block at every point is the bias row. -/
theorem bias_apply (c : Dev nD) (t : Fin cfg2.N) (u : Fin 1) (k : Fin 40) :
    (iblk2 V c 1 t : Vec Ideal S1x40 .f32) (ix2 u k) = (V c main_v58 : S1x40.Idx → EReal) (ix2 u k) := by
  obtain ⟨-, -, e2, e3, -, -⟩ := idx_facts t
  unfold iblk2
  rw [View.read_apply]
  show V c main_v58 _ = V c main_v58 _
  refine congrArg _ (funext fun a => Fin.ext ?_)
  match a with
  | ⟨0, _⟩ => show win2_1.index t (0 : Fin 2) * 1 + 1 * u.val = u.val; rw [e2]; omega
  | ⟨1, _⟩ => show win2_1.index t (1 : Fin 2) * 40 + 1 * k.val = k.val; rw [e3]; omega

/-- What point t writes back is block t of the head over the whole input. -/
theorem flushed_eq (c : Dev nD) (t : Fin cfg2.N) :
    (dat2 V c).flushed 2 t
      = ((cfg2.win 2).blk t).view.read (Elt Ideal) (head (V c main_v57) (V c main_v58)) := by
  have hN : cfg2.N = 10 := N_2
  have ht : t.val < 10 := hN ▸ t.isLt
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S10000x40) hz, View.ld_unit_zero (S := S1x40) hz]
  funext j
  obtain ⟨p, q, rfl⟩ : ∃ (p : Fin 10000) (q : Fin 40), j = ix2 p q := ⟨j 0, j 1, eq_ix2 j⟩
  rw [View.read_apply]
  have hemb : ((cfg2.win 2).blk t).view.emb (ix2 p q) = ix2 (⟨t.val * 10000 + p.val, by omega⟩ : Fin 100000) q :=
    funext fun a => Fin.ext (by
      match a with
      | ⟨0, _⟩ => show win2_2.index t (0 : Fin 2) * 10000 + 1 * p.val = t.val * 10000 + p.val; rw [e4]; omega
      | ⟨1, _⟩ => show win2_2.index t (1 : Fin 2) * 40 + 1 * q.val = q.val; rw [e5]; omega)
  rw [hemb]
  exact point_eq _ _ _ _ p q ⟨t.val * 10000 + p.val, by omega⟩
    (fun k => rows_apply V c t p k ⟨t.val * 10000 + p.val, by omega⟩ rfl) (fun k => bias_apply V c t 0 k)

/-- An index of the output is in point t's block iff each coordinate is in the block's range. -/
theorem mem_blk (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v59).slice (win2_2.rect t)).set ↔ _
  rw [View.set_slice_whole, Rect.mem_set_unit]
  exact Iff.rfl

/-- Every row of the output is in the block of the point its row number divided by 10000 names. -/
theorem cover (i : S100000x40.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 40 := (i 1).isLt
  let t : Fin cfg2.N := ⟨(i 0).val / 10000, by rw [hN]; omega⟩
  obtain ⟨-, -, -, -, e4, e5⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    rw [e4]; show (i 0).val / 10000 * 10000 ≤ (i 0).val ∧ (i 0).val < (i 0).val / 10000 * 10000 + 10000; omega
  | ⟨1, _⟩ =>
    show win2_2.index t (1 : Fin 2) * 40 ≤ (i 1).val ∧ (i 1).val < win2_2.index t (1 : Fin 2) * 40 + 40
    rw [e5]; omega

/-- The output array after the region is the head over the input and bias row arrays as the region found them. -/
theorem final (c : Dev nD) :
    (dat2 V c).arrAt 2 cfg2.N = head (V c main_v57) (V c main_v58) :=
  (dat2 V c).arrAt_eq_of_cover 2 (head (V c main_v57) (V c main_v58)) (fun t _ => flushed_eq V c t) cover

end Cert.KernelIdeal.Region2

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.KernelFold.lean ====
/-
  The idealized kernel program as one line of operations.

  At each boundary of the program the buffer contents are a fold of its segments over the launch contents.  Each
  of the three pipelined regions leaves its input arrays as it found them and its one output array at a
  function of them — the whole product, the whole bias-clip-product layer, the whole bias-and-log-softmax head —
  so it rewrites the contents exactly as one host operation with that function would.  The bias rows the second
  and third regions read are reshapes of the bias arguments, which read the same as the arguments laid along
  the second axis of a one-row array; the operations standing for those regions read the arguments directly.
  The final contents are then the fold of one line of host operations over the launch contents.
-/
import proofs.«125573_j73478300500078_2_alg».proof.Proof.Gen.KernelIdeal.Frame
import proofs.«125573_j73478300500078_2_alg».proof.Proof.Region0
import proofs.«125573_j73478300500078_2_alg».proof.Proof.Region1
import proofs.«125573_j73478300500078_2_alg».proof.Proof.Region2
import proofs.«125573_j73478300500078_2_alg».proof.Proof.LibRegionOp
import proofs.«125573_j73478300500078_2_alg».proof.Proof.LibHostRowOps
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat)

theorem vecRow128 : S128.BroadcastsInDim S1x128 ![1] := by decide
theorem vecRow40 : S40.BroadcastsInDim S1x40 ![1] := by decide

/-- A length-n vector reshaped to one row reads as the vector laid along the second axis of a one-row array. -/
theorem reshape_row {n : Nat} (b : (⟨1, ![n]⟩ : Shape).Idx → EReal) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ b hs = broadcastInDim ⟨2, ![1, n]⟩ ![1] hb b := by
  funext i
  obtain ⟨u, j, rfl⟩ : ∃ (u : Fin 1) (j : Fin n), i = ix2 u j := ⟨i 0, i 1, eq_ix2 i⟩
  rw [Cert.HostRowOps.vecToRow_apply]
  exact shapeCast_apply b hs _ _ (by
    have hu : u.val = 0 := by omega
    rw [Shape.rowMajor_val_one, Shape.rowMajor_val_two]
    show j.val = u.val * n + j.val
    rw [hu]; omega)

/-- The operation the first region acts as: the whole product of the input with the first weight. -/
abbrev op0 : HloOp τ sig (Elt Ideal) :=
  StableHlo.binary main_arg0 main_arg2 main_v31 (fun x w => Cert.KernelIdeal.Region0.product x w)

/-- The operation the second region acts as: the bias-clip-product layer of the aggregated rows. -/
abbrev op1 : HloOp τ sig (Elt Ideal) :=
  StableHlo.ternary main_v43 main_arg3 main_arg4 main_v45
    (fun a b w => Cert.KernelIdeal.Region1.layer a (broadcastInDim S1x128 ![1] vecRow128 b) w)

/-- The operation the third region acts as: the bias-and-log-softmax head of the aggregated rows. -/
abbrev op2 : HloOp τ sig (Elt Ideal) :=
  StableHlo.binary main_v57 main_arg5 main_v59
    (fun a b => Cert.KernelIdeal.Region2.head a (broadcastInDim S1x40 ![1] vecRow40 b))

variable (m : (ℓ : Loc nD τ sig) → Buf (Elt Ideal) ℓ) (ρ : Dev nD → PrngReg)

/-- The first region rewrites the contents as its operation does. -/
theorem W4_eq (c : Dev nD) : W4 m ρ c = op0.result (W3 m ρ c) := by
  unfold W4
  refine Cert.RegionOp.withArrays_eq_result spec0 launch0.win.arr_inj c (W3 m ρ c) _ op0 2 rfl ?_ ?_
  · refine (Cert.KernelIdeal.Region0.final (V3 m ρ) c).trans ?_
    show Cert.KernelIdeal.Region0.product (W3 m ρ c (Proc.devRef .tc main_arg0)) (W3 m ρ c (Proc.devRef .tc main_arg2))
      = op0.result (W3 m ρ c) (Proc.devRef .tc main_v31)
    rw [StableHlo.binary_result]
  · intro w hw
    match w with
    | ⟨0, _⟩ => exact ((dat0 (V3 m ρ) c).arrAt_in 0 rfl _).trans (A_eq0 (V3 m ρ) c 0)
    | ⟨1, _⟩ => exact ((dat0 (V3 m ρ) c).arrAt_in 1 rfl _).trans (A_eq0 (V3 m ρ) c 1)
    | ⟨2, _⟩ => exact absurd rfl hw

/-- The bias row the second region reads is the first bias laid along a one-row array. -/
theorem row1 (c : Dev nD) :
    W5 m ρ c (Proc.devRef .tc main_v44) = broadcastInDim S1x128 ![1] vecRow128 (W5 m ρ c (Proc.devRef .tc main_arg3)) := by
  show after hostOps1 (W4 m ρ c) (Proc.devRef .tc main_v44)
    = broadcastInDim S1x128 ![1] vecRow128 (after hostOps1 (W4 m ρ c) (Proc.devRef .tc main_arg3))
  generalize W4 m ρ c = U
  after_results
  exact reshape_row (n := 128) _ _ _

/-- The second region rewrites the contents as its operation does. -/
theorem W6_eq (c : Dev nD) : W6 m ρ c = op1.result (W5 m ρ c) := by
  unfold W6
  refine Cert.RegionOp.withArrays_eq_result spec1 launch1.win.arr_inj c (W5 m ρ c) _ op1 3 rfl ?_ ?_
  · refine (Cert.KernelIdeal.Region1.final (V5 m ρ) c).trans ?_
    show Cert.KernelIdeal.Region1.layer (W5 m ρ c (Proc.devRef .tc main_v43)) (W5 m ρ c (Proc.devRef .tc main_v44)) (W5 m ρ c (Proc.devRef .tc main_arg4))
      = op1.result (W5 m ρ c) (Proc.devRef .tc main_v45)
    rw [StableHlo.ternary_result, row1]
  · intro w hw
    match w with
    | ⟨0, _⟩ => exact ((dat1 (V5 m ρ) c).arrAt_in 0 rfl _).trans (A_eq1 (V5 m ρ) c 0)
    | ⟨1, _⟩ => exact ((dat1 (V5 m ρ) c).arrAt_in 1 rfl _).trans (A_eq1 (V5 m ρ) c 1)
    | ⟨2, _⟩ => exact ((dat1 (V5 m ρ) c).arrAt_in 2 rfl _).trans (A_eq1 (V5 m ρ) c 2)
    | ⟨3, _⟩ => exact absurd rfl hw

/-- The bias row the third region reads is the second bias laid along a one-row array. -/
theorem row2 (c : Dev nD) :
    W7 m ρ c (Proc.devRef .tc main_v58) = broadcastInDim S1x40 ![1] vecRow40 (W7 m ρ c (Proc.devRef .tc main_arg5)) := by
  show after hostOps2 (W6 m ρ c) (Proc.devRef .tc main_v58)
    = broadcastInDim S1x40 ![1] vecRow40 (after hostOps2 (W6 m ρ c) (Proc.devRef .tc main_arg5))
  generalize W6 m ρ c = U
  after_results
  exact reshape_row (n := 40) _ _ _

/-- The third region rewrites the contents as its operation does. -/
theorem W8_eq (c : Dev nD) : W8 m ρ c = op2.result (W7 m ρ c) := by
  unfold W8
  refine Cert.RegionOp.withArrays_eq_result spec2 launch2.win.arr_inj c (W7 m ρ c) _ op2 2 rfl ?_ ?_
  · refine (Cert.KernelIdeal.Region2.final (V7 m ρ) c).trans ?_
    show Cert.KernelIdeal.Region2.head (W7 m ρ c (Proc.devRef .tc main_v57)) (W7 m ρ c (Proc.devRef .tc main_v58))
      = op2.result (W7 m ρ c) (Proc.devRef .tc main_v59)
    rw [StableHlo.binary_result, row2]
  · intro w hw
    match w with
    | ⟨0, _⟩ => exact ((dat2 (V7 m ρ) c).arrAt_in 0 rfl _).trans (A_eq2 (V7 m ρ) c 0)
    | ⟨1, _⟩ => exact ((dat2 (V7 m ρ) c).arrAt_in 1 rfl _).trans (A_eq2 (V7 m ρ) c 1)
    | ⟨2, _⟩ => exact absurd rfl hw

/-- The final contents: one line of operations folded over the launch contents. -/
theorem W8_line (c : Dev nD) :
    W8 m ρ c = op2.result (after hostOps2 (op1.result (after hostOps1 (op0.result
      (after hostOps0_2 (after hostOps0_1 (after hostOps0 (W0 m ρ c)))))))) := by
  rw [W8_eq]
  show op2.result (after hostOps2 (W6 m ρ c)) = _
  rw [W6_eq]
  show op2.result (after hostOps2 (op1.result (after hostOps1 (W4 m ρ c)))) = _
  rw [W4_eq]

end Cert.KernelIdeal.Fold

end
-- ==== Proof.Spec.lean ====
/-
  The two-layer graph convolution as one function of the six arguments.

  From the [2, E] edge list (E = 1 600 000) the source and destination lists are its two rows, each followed by
  the self-loops 0 … N−1 (N = 100 000).  The degree of a node is the number of times it occurs as a destination;
  the weight of an edge is deg(src)^(-1/2) · deg(dst)^(-1/2), with 0 in place of the reciprocal root where the degree is
  not positive, and a negative index wrapped by N before it is used.  One aggregation gathers the rows of an [N, F]
  array at the sources, scales each by its edge's weight and adds it into the row of its destination.  The network
  is: project the input by the first weight, aggregate, add the first bias and clip at zero and project by the
  second weight, aggregate again, add the second bias and take the row-wise log-softmax.
-/
import proofs.«125573_j73478300500078_2_alg».proof.KernelIdeal
import proofs.«125573_j73478300500078_2_alg».proof.Proof.Region0
import proofs.«125573_j73478300500078_2_alg».proof.Proof.Region1
import proofs.«125573_j73478300500078_2_alg».proof.Proof.Region2

noncomputable section

namespace Cert.Spec

open Cert.KernelIdeal Cert.KernelIdeal.Facts₀
open Idealize.ShloMosaic

/-- The sources: the edge list's first row, then the self-loops. -/
def src (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
     ⟨S100000, iotaInDim S100000 32 0⟩] concatenates_S1600000_S100000_S1700000_d0

/-- The destinations: the edge list's second row, then the self-loops. -/
def dst (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
     ⟨S100000, iotaInDim S100000 32 0⟩] concatenates_S1600000_S100000_S1700000_d0

/-- An index list with its negative entries wrapped by the number of nodes, as a one-column array. -/
def wrapped (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The degree of every node: ones added at the destinations. -/
def degree (d : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 d)
    (broadcastInDim S1700000 ![] bcast_S_S1700000 (constant (F := Ideal) S_ .f32 0x3F800000#32))

/-- The reciprocal root of a degree array where it is positive, zero elsewhere. -/
def invRootOf (deg : FVec Ideal S100000 .f32) : FVec Ideal S100000 .f32 :=
  select (cmpf (F := Ideal) .ogt deg (broadcastInDim S100000 ![] bcast_S_S100000 (constant (F := Ideal) S_ .f32 0x00000000#32)))
    (Host.rsqrt (F := Ideal) deg)
    (broadcastInDim S100000 ![] bcast_S_S100000 (id (constant (F := Ideal) S_ .f32 0x00000000#32)))

/-- The reciprocal root of the degree of every node. -/
def invRoot (d : IVec S1700000 32) : FVec Ideal S100000 .f32 := invRootOf (degree d)

/-- The weight of every edge from per-node factors r: r at the source times r at the destination, as a one-column array. -/
def weights (r : FVec Ideal S100000 .f32) (s d : IVec S1700000 32) : FVec Ideal S1700000x1 .f32 :=
  broadcastInDim S1700000x1 ![0] bcast_S1700000_S1700000x1_0
    (mulf (Host.gather gather_S100000_S1700000x1_S1700000_n_0_n_n_0_1_1 r (wrapped s))
      (Host.gather gather_S100000_S1700000x1_S1700000_n_0_n_n_0_1_1 r (wrapped d)))

/-- The weight of every edge. -/
def norm (s d : IVec S1700000 32) : FVec Ideal S1700000x1 .f32 := weights (invRoot d) s d

/-- One aggregation of a 128-wide array. -/
def agg128 (s d : IVec S1700000 32) (n : FVec Ideal S1700000x1 .f32) (h : FVec Ideal S100000x128 .f32) :
    FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf (Host.gather gather_S100000x128_S1700000x1_S1700000x128_1_0_n_n_0_1_1128 h (wrapped s))
      (broadcastInDim S1700000x128 ![0, 1] bcast_S1700000x1_S1700000x128_0_1 n))

/-- One aggregation of a 40-wide array. -/
def agg40 (s d : IVec S1700000 32) (n : FVec Ideal S1700000x1 .f32) (h : FVec Ideal S100000x40 .f32) :
    FVec Ideal S100000x40 .f32 :=
  Host.scatterAdd (F := Ideal) scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 d)
    (mulf (Host.gather gather_S100000x40_S1700000x1_S1700000x40_1_0_n_n_0_1_140 h (wrapped s))
      (broadcastInDim S1700000x40 ![0, 1] bcast_S1700000x1_S1700000x40_0_1 n))

theorem vecRow128 : S128.BroadcastsInDim S1x128 ![1] := by decide
theorem vecRow40 : S40.BroadcastsInDim S1x40 ![1] := by decide

/-- The network after the edge weights: two layers over given sources, destinations and weights. -/
def layers (s d : IVec S1700000 32) (n : FVec Ideal S1700000x1 .f32) (x : FVec Ideal S100000x500 .f32)
    (w1 : FVec Ideal S500x128 .f32) (b1 : FVec Ideal S128 .f32) (w2 : FVec Ideal S128x40 .f32) (b2 : FVec Ideal S40 .f32) :
    FVec Ideal S100000x40 .f32 :=
  Cert.KernelIdeal.Region2.head
    (agg40 s d n (Cert.KernelIdeal.Region1.layer (agg128 s d n (Cert.KernelIdeal.Region0.product x w1))
      (broadcastInDim S1x128 ![1] vecRow128 b1) w2))
    (broadcastInDim S1x40 ![1] vecRow40 b2)

/-- The whole network as a function of the six arguments. -/
def network (x : FVec Ideal S100000x500 .f32) (ei : IVec S2x1600000 32) (w1 : FVec Ideal S500x128 .f32)
    (b1 : FVec Ideal S128 .f32) (w2 : FVec Ideal S128x40 .f32) (b2 : FVec Ideal S40 .f32) : FVec Ideal S100000x40 .f32 :=
  layers (src ei) (dst ei) (norm (src ei) (dst ei)) x w1 b1 w2 b2

end Cert.Spec

end
-- ==== Proof.KernelValue.lean ====
/-
  What the idealized kernel program's result buffer ends holding.

  The program's final contents are the fold of one line of host operations over the launch contents.  The line
  up to the first region's operation computes, from the edge list alone, the source and destination lists and
  the edge weights; the rest, over ANY contents, leaves in the result buffer the two layers of the network over
  the sources, destinations and weights those contents hold.  Put together, the result buffer ends at the whole
  network as a function of the six argument arrays.
-/
import proofs.«125573_j73478300500078_2_alg».proof.Proof.KernelFold
import proofs.«125573_j73478300500078_2_alg».proof.Proof.Spec

set_option maxRecDepth 16384

noncomputable section

namespace Cert.KernelIdeal.Stages

open Cert.KernelIdeal Cert.KernelIdeal.Gen Cert.KernelIdeal.Fold
open Idealize.ShloMosaic Idealize.ShloMosaic.TcCoe Idealize.SL.Sem
open Idealize.ShloMosaic.StableHlo

/-- The contents after the operations that come before the first region, from contents U. -/
abbrev edges (U : Valuation τ sig (Elt Ideal)) : Valuation τ sig (Elt Ideal) :=
  after hostOps0_2 (after hostOps0_1 (after hostOps0 U))

set_option maxHeartbeats 4000000 in
/-- From any contents, the line from the first region's operation on leaves the two layers in the result buffer. -/
theorem layers_line (U : Valuation τ sig (Elt Ideal)) :
    op2.result (after hostOps2 (op1.result (after hostOps1 (op0.result U)))) (Proc.devRef .tc main_v59)
      = Cert.Spec.layers (U (Proc.devRef .tc main_v3)) (U (Proc.devRef .tc main_v6)) (U (Proc.devRef .tc main_v30))
          (U (Proc.devRef .tc main_arg0)) (U (Proc.devRef .tc main_arg2)) (U (Proc.devRef .tc main_arg3))
          (U (Proc.devRef .tc main_arg4)) (U (Proc.devRef .tc main_arg5)) := by
  simp only [op0, op1, op2, hostOps1, hostOps2]
  after_results_simp
  rfl

set_option maxHeartbeats 4000000 in
/-- The sources after the first stretch of operations. -/
theorem edges_src (U : Valuation τ sig (Elt Ideal)) :
    edges U (Proc.devRef .tc main_v3) = Cert.Spec.src (U (Proc.devRef .tc main_arg1)) := by
  simp only [edges, hostOps0, hostOps0_1, hostOps0_2]
  after_results
  rfl

set_option maxHeartbeats 4000000 in
/-- The destinations after the first stretch of operations. -/
theorem edges_dst (U : Valuation τ sig (Elt Ideal)) :
    edges U (Proc.devRef .tc main_v6) = Cert.Spec.dst (U (Proc.devRef .tc main_arg1)) := by
  simp only [edges, hostOps0, hostOps0_1, hostOps0_2]
  after_results
  rfl

set_option maxHeartbeats 4000000 in
/-- The first stretch leaves the degree test, the reciprocal root of the degree and a zero, over the
    destinations it leaves. -/
theorem stretch0_degree (U : Valuation τ sig (Elt Ideal)) :
    after hostOps0 U (Proc.devRef .tc main_v12)
        = cmpf (F := Ideal) .ogt (Cert.Spec.degree (after hostOps0 U (Proc.devRef .tc main_v6)))
            (broadcastInDim S100000 ![] Facts₀.bcast_S_S100000 (constant (F := Ideal) S_ .f32 0x00000000#32))
    ∧ after hostOps0 U (Proc.devRef .tc main_v13)
        = Host.rsqrt (F := Ideal) (Cert.Spec.degree (after hostOps0 U (Proc.devRef .tc main_v6)))
    ∧ after hostOps0 U (Proc.devRef .tc main_cst_2) = constant (F := Ideal) S_ .f32 0x00000000#32 := by
  simp only [hostOps0]
  refine ⟨?_, ?_, ?_⟩
  · after_results_simp; rfl
  · after_results_simp; rfl
  · after_results_simp

set_option maxHeartbeats 4000000 in
/-- The first stretch leaves the sources and the destinations. -/
theorem stretch0_ends (U : Valuation τ sig (Elt Ideal)) :
    after hostOps0 U (Proc.devRef .tc main_v3) = Cert.Spec.src (U (Proc.devRef .tc main_arg1))
    ∧ after hostOps0 U (Proc.devRef .tc main_v6) = Cert.Spec.dst (U (Proc.devRef .tc main_arg1)) := by
  simp only [hostOps0]
  refine ⟨?_, ?_⟩
  · after_results; rfl
  · after_results; rfl

set_option maxHeartbeats 4000000 in
/-- The selection between the reciprocal root and zero, and what it leaves untouched. -/
theorem where_line (U : Valuation τ sig (Elt Ideal)) :
    after hostOps0_1 U (Proc.devRef .tc main_v14)
        = select (U (Proc.devRef .tc main_v12)) (U (Proc.devRef .tc main_v13))
            (broadcastInDim S100000 ![] Facts₀.bcast_S_S100000 (id (U (Proc.devRef .tc main_cst_2))))
    ∧ after hostOps0_1 U (Proc.devRef .tc main_v3) = U (Proc.devRef .tc main_v3)
    ∧ after hostOps0_1 U (Proc.devRef .tc main_v6) = U (Proc.devRef .tc main_v6) := by
  simp only [hostOps0_1]
  refine ⟨?_, ?_, ?_⟩
  · after_results_simp; rfl
  · after_results_simp
  · after_results_simp

set_option maxHeartbeats 4000000 in
/-- The last stretch before the first region leaves the edge weights over the factors, sources and
    destinations it finds. -/
theorem stretch2_weights (U : Valuation τ sig (Elt Ideal)) :
    after hostOps0_2 U (Proc.devRef .tc main_v30)
      = Cert.Spec.weights (U (Proc.devRef .tc main_v14)) (U (Proc.devRef .tc main_v3)) (U (Proc.devRef .tc main_v6)) := by
  simp only [hostOps0_2]
  after_results_simp
  rfl

/-- The edge weights after the operations before the first region. -/
theorem edges_norm (U : Valuation τ sig (Elt Ideal)) :
    edges U (Proc.devRef .tc main_v30)
      = Cert.Spec.norm (Cert.Spec.src (U (Proc.devRef .tc main_arg1))) (Cert.Spec.dst (U (Proc.devRef .tc main_arg1))) := by
  show after hostOps0_2 (after hostOps0_1 (after hostOps0 U)) (Proc.devRef .tc main_v30) = _
  obtain ⟨h12, h13, hc2⟩ := stretch0_degree U
  obtain ⟨hs, hd⟩ := stretch0_ends U
  obtain ⟨hw, c3, c6⟩ := where_line (after hostOps0 U)
  rw [stretch2_weights, hw, c3, c6, h12, h13, hc2, hs, hd]
  rfl

set_option maxHeartbeats 4000000 in
/-- The first stretch of operations writes no argument. -/
theorem edges_args (U : Valuation τ sig (Elt Ideal)) :
    edges U (Proc.devRef .tc main_arg0) = U (Proc.devRef .tc main_arg0)
    ∧ edges U (Proc.devRef .tc main_arg2) = U (Proc.devRef .tc main_arg2)
    ∧ edges U (Proc.devRef .tc main_arg3) = U (Proc.devRef .tc main_arg3)
    ∧ edges U (Proc.devRef .tc main_arg4) = U (Proc.devRef .tc main_arg4)
    ∧ edges U (Proc.devRef .tc main_arg5) = U (Proc.devRef .tc main_arg5) := by
  simp only [edges, hostOps0, hostOps0_1, hostOps0_2]
  refine ⟨?_, ?_, ?_, ?_, ?_⟩ <;> after_results_simp

variable (m : (ℓ : Loc nD τ sig) → Buf (Elt Ideal) ℓ) (ρ : Dev nD → PrngReg)

/-- The result buffer ends holding the network of the argument arrays. -/
theorem result_eq (c : Dev nD) :
    W8 m ρ c (Proc.devRef .tc main_v59)
      = Cert.Spec.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [W8_line]
  show op2.result (after hostOps2 (op1.result (after hostOps1 (op0.result (edges (W0 m ρ c)))))) (Proc.devRef .tc main_v59) = _
  obtain ⟨e0, e2, e3, e4, e5⟩ := edges_args (W0 m ρ c)
  rw [layers_line, edges_norm, edges_src, edges_dst, e0, e2, e3, e4, e5]
  rfl

end Cert.KernelIdeal.Stages

end
-- ==== Proof.ReferenceLine.lean ====
/-
  The idealized reference program as one line of operations.

  The reference's @main is a straight line of 97 host operations (a called function's operations stand in its
  call's place).  Every weakly fair execution of it terminates with each buffer at the fold of the operations'
  results over the launch contents.  The line is cut after its 41st operation: the first part computes, from
  the edge list alone, the source and destination lists and the edge weights; the second part is the two
  layers of the network over them.  Each part is cut again where a called function's operations begin and end.
-/
import proofs.«125573_j73478300500078_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 97 operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)),
    binary main_arg0 main_arg2 main_v31 ((fun l r => Host.dotGeneral dot_S100000x500_S500x128_S100000x128_1_0_0_1_n_n none l r) : (⟨S100000x500, .f32⟩ : BufTy).Contents (Elt F) → (⟨S500x128, .f32⟩ : BufTy).Contents (Elt F) → (⟨S100000x128, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v30 main_v56 (broadcastInDim S1700000x40 ![0, 1] bcast_S1700000x1_S1700000x40_0_1 : (⟨S1700000x1, .f32⟩ : BufTy).Contents (Elt F) → (⟨S1700000x40, .f32⟩ : BufTy).Contents (Elt F)),
    binary main_v55 main_v56 main_v57 (mulf : (⟨S1700000x40, .f32⟩ : BufTy).Contents (Elt F) → (⟨S1700000x40, .f32⟩ : BufTy).Contents (Elt F) → (⟨S1700000x40, .f32⟩ : BufTy).Contents (Elt F)),
    nullary main_cst_11 (constant S_ .f32 0x00000000#32),
    unary main_cst_11 main_v58 (broadcastInDim S100000x40 ![] bcast_S_S100000x40 : (⟨S_, .f32⟩ : BufTy).Contents (Elt F) → (⟨S100000x40, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v61 (broadcastInDim S1x40 ![1] bcast_S40_S1x40_1 : (⟨S40, .f32⟩ : BufTy).Contents (Elt F) → (⟨S1x40, .f32⟩ : BufTy).Contents (Elt F)),
    unary main_v61 main_v62 (broadcastInDim S100000x40 ![0, 1] bcast_S1x40_S100000x40_0_1 : (⟨S1x40, .f32⟩ : BufTy).Contents (Elt F) → (⟨S100000x40, .f32⟩ : BufTy).Contents (Elt F)),
    binary main_v60 main_v62 main_v63 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v63) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v63) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v64) subf ]

/-- The first 41: sources, destinations and edge weights from the edge list. -/
abbrev opsEdges : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)) ]

/-- The remaining 56: the two layers over them. -/
abbrev opsLayers : List (HloOp τ sig (Elt F)) :=
  [ binary main_arg0 main_arg2 main_v31 ((fun l r => Host.dotGeneral dot_S100000x500_S500x128_S100000x128_1_0_0_1_n_n none l r) : (⟨S100000x500, .f32⟩ : BufTy).Contents (Elt F) → (⟨S500x128, .f32⟩ : BufTy).Contents (Elt F) → (⟨S100000x128, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v30 main_v56 (broadcastInDim S1700000x40 ![0, 1] bcast_S1700000x1_S1700000x40_0_1 : (⟨S1700000x1, .f32⟩ : BufTy).Contents (Elt F) → (⟨S1700000x40, .f32⟩ : BufTy).Contents (Elt F)),
    binary main_v55 main_v56 main_v57 (mulf : (⟨S1700000x40, .f32⟩ : BufTy).Contents (Elt F) → (⟨S1700000x40, .f32⟩ : BufTy).Contents (Elt F) → (⟨S1700000x40, .f32⟩ : BufTy).Contents (Elt F)),
    nullary main_cst_11 (constant S_ .f32 0x00000000#32),
    unary main_cst_11 main_v58 (broadcastInDim S100000x40 ![] bcast_S_S100000x40 : (⟨S_, .f32⟩ : BufTy).Contents (Elt F) → (⟨S100000x40, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v61 (broadcastInDim S1x40 ![1] bcast_S40_S1x40_1 : (⟨S40, .f32⟩ : BufTy).Contents (Elt F) → (⟨S1x40, .f32⟩ : BufTy).Contents (Elt F)),
    unary main_v61 main_v62 (broadcastInDim S100000x40 ![0, 1] bcast_S1x40_S100000x40_0_1 : (⟨S1x40, .f32⟩ : BufTy).Contents (Elt F) → (⟨S100000x40, .f32⟩ : BufTy).Contents (Elt F)),
    binary main_v60 main_v62 main_v63 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v63) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v63) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v64) subf ]

/-- The first 18: sources, destinations, the degree, its test and its reciprocal root. -/
abbrev opsEdgesA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The next 3: the reciprocal root where the degree is positive, zero elsewhere. -/
abbrev opsWhere : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The next 20: the edge weights. -/
abbrev opsEdgesB : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)) ]

/-- The next 19: the first projection, its aggregation and the first bias. -/
abbrev opsLayer1 : List (HloOp τ sig (Elt F)) :=
  [ binary main_arg0 main_arg2 main_v31 ((fun l r => Host.dotGeneral dot_S100000x500_S500x128_S100000x128_1_0_0_1_n_n none l r) : (⟨S100000x500, .f32⟩ : BufTy).Contents (Elt F) → (⟨S500x128, .f32⟩ : BufTy).Contents (Elt F) → (⟨S100000x128, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- The next 3: the clip at zero. -/
abbrev opsRelu : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- The next 19: the second projection, its aggregation and the second bias. -/
abbrev opsLayer2 : List (HloOp τ sig (Elt F)) :=
  [ binary main_v47 main_arg4 main_v48 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v30 main_v56 (broadcastInDim S1700000x40 ![0, 1] bcast_S1700000x1_S1700000x40_0_1 : (⟨S1700000x1, .f32⟩ : BufTy).Contents (Elt F) → (⟨S1700000x40, .f32⟩ : BufTy).Contents (Elt F)),
    binary main_v55 main_v56 main_v57 (mulf : (⟨S1700000x40, .f32⟩ : BufTy).Contents (Elt F) → (⟨S1700000x40, .f32⟩ : BufTy).Contents (Elt F) → (⟨S1700000x40, .f32⟩ : BufTy).Contents (Elt F)),
    nullary main_cst_11 (constant S_ .f32 0x00000000#32),
    unary main_cst_11 main_v58 (broadcastInDim S100000x40 ![] bcast_S_S100000x40 : (⟨S_, .f32⟩ : BufTy).Contents (Elt F) → (⟨S100000x40, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v61 (broadcastInDim S1x40 ![1] bcast_S40_S1x40_1 : (⟨S40, .f32⟩ : BufTy).Contents (Elt F) → (⟨S1x40, .f32⟩ : BufTy).Contents (Elt F)),
    unary main_v61 main_v62 (broadcastInDim S100000x40 ![0, 1] bcast_S1x40_S100000x40_0_1 : (⟨S1x40, .f32⟩ : BufTy).Contents (Elt F) → (⟨S100000x40, .f32⟩ : BufTy).Contents (Elt F)),
    binary main_v60 main_v62 main_v63 (addf : (⟨S100000x40, .f32⟩ : BufTy).Contents (Elt F) → (⟨S100000x40, .f32⟩ : BufTy).Contents (Elt F) → (⟨S100000x40, .f32⟩ : BufTy).Contents (Elt F)) ]

/-- The last 15: the row-wise log-softmax. -/
abbrev opsLogSoftmax : List (HloOp τ sig (Elt F)) :=
  [ TRef.nullary (TRef.of (T := ⟨S_, .f32⟩) main_call2_cst) (constant S_ .f32 0xFF800000#32),
    TRef.binary (TRef.of (T := ⟨S100000x40, .f32⟩) main_v63) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v63) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v64) subf ]

set_option maxRecDepth 8192 in
set_option maxHeartbeats 4000000 in
theorem opsEdges_split : (opsEdges : List (HloOp τ sig (Elt F))) = opsEdgesA ++ (opsWhere ++ opsEdgesB) := rfl

set_option maxRecDepth 8192 in
set_option maxHeartbeats 4000000 in
theorem opsLayers_split : (opsLayers : List (HloOp τ sig (Elt F))) = opsLayer1 ++ (opsRelu ++ (opsLayer2 ++ opsLogSoftmax)) := rfl

set_option maxRecDepth 8192 in
set_option maxHeartbeats 4000000 in
theorem ops_split : (ops : List (HloOp τ sig (Elt F))) = opsEdges ++ opsLayers := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 4000000 in
/-- Every weakly fair execution of @main terminates, nothing faulting, with each buffer at the fold of the
    operations' results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.LibTypedRef.lean ====
/-
  Typed references and the transports they carry.

  A typed reference pairs a buffer with the type of the tensor value it holds; contents at the value's type are moved to
  contents of the buffer and back along the equation between the two types.  The transports change nothing: going there and
  back is the identity, and a transported value equals any value of the other type that it is heterogeneously equal to.
-/
import Idealize.ShloMosaic.Lib.StableHlo.Run

noncomputable section

namespace Cert.TypedRef

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, h, h1, h2⟩ := x
  subst h
  rfl

/-- A value moved to the buffer's type is any value of that type it is heterogeneously equal to. -/
theorem toBuf_eq (x : TRef sig T) (v : T.Contents Val) (w : x.ref.ty.Contents Val) (h : HEq v w) : x.toBuf v = w :=
  eq_of_heq ((cast_heq _ v).trans h)

/-- A value moved from the buffer's type is any value of the value's type it is heterogeneously equal to. -/
theorem ofBuf_eq (x : TRef sig T) (v : x.ref.ty.Contents Val) (w : T.Contents Val) (h : HEq v w) : x.ofBuf v = w :=
  eq_of_heq ((cast_heq _ v).trans h)

end Cert.TypedRef

end
-- ==== Proof.ReferenceValue.lean ====
/-
  What the idealized reference program's result buffer ends holding.

  The reference's line of operations is read stretch by stretch, each over ANY contents it starts from.  The first
  18 operations leave the sources and destinations (the edge list's rows followed by the self-loops), the test of
  the degree, its reciprocal root and a zero; the next 3 select between the root and zero; the next 20 leave the
  edge weights over those factors, sources and destinations.  Then 19 operations project by the first weight,
  aggregate and add the first bias; 3 clip at zero; 19 project by the second weight, aggregate and add the second
  bias; the last 15 are the row-wise log-softmax.  No operation writes an argument.  Put together, the fold of the
  whole line leaves in the result buffer the network as a function of the six argument arrays.
-/
import proofs.«125573_j73478300500078_2_alg».proof.Proof.ReferenceLine
import proofs.«125573_j73478300500078_2_alg».proof.Proof.Spec
import proofs.«125573_j73478300500078_2_alg».proof.Proof.LibRegionOp
import proofs.«125573_j73478300500078_2_alg».proof.Proof.LibTypedRef

set_option maxRecDepth 16384

noncomputable section

namespace Cert.ReferenceIdeal.Stages

open Cert.ReferenceIdeal Cert.ReferenceIdeal.Gen Cert.ReferenceIdeal.Line
open Idealize.ShloMosaic Idealize.ShloMosaic.TcCoe Idealize.SL.Sem
open Idealize.ShloMosaic.StableHlo

local notation "Vals" => Valuation τ sig (Elt Ideal)

/-! ## The edges -/

set_option maxHeartbeats 4000000 in
/-- The first stretch leaves the sources and the destinations. -/
theorem edgesA_ends (U : Vals) :
    after (opsEdgesA (F := Ideal)) U (Proc.devRef .tc main_v3) = Cert.Spec.src (U (Proc.devRef .tc main_arg1))
    ∧ after (opsEdgesA (F := Ideal)) U (Proc.devRef .tc main_v6) = Cert.Spec.dst (U (Proc.devRef .tc main_arg1)) := by
  simp only [opsEdgesA]
  refine ⟨?_, ?_⟩
  · after_results; rfl
  · after_results; rfl

set_option maxHeartbeats 4000000 in
/-- The first stretch leaves the degree test, the reciprocal root of the degree and a zero, over the
    destinations it leaves. -/
theorem edgesA_degree (U : Vals) :
    after (opsEdgesA (F := Ideal)) U (Proc.devRef .tc main_v12)
        = cmpf (F := Ideal) .ogt (Cert.Spec.degree (after (opsEdgesA (F := Ideal)) U (Proc.devRef .tc main_v6)))
            (broadcastInDim Cert.KernelIdeal.S100000 ![] Cert.KernelIdeal.Facts₀.bcast_S_S100000
              (constant (F := Ideal) Cert.KernelIdeal.S_ .f32 0x00000000#32))
    ∧ after (opsEdgesA (F := Ideal)) U (Proc.devRef .tc main_v13)
        = Host.rsqrt (F := Ideal) (Cert.Spec.degree (after (opsEdgesA (F := Ideal)) U (Proc.devRef .tc main_v6)))
    ∧ after (opsEdgesA (F := Ideal)) U (Proc.devRef .tc main_cst_2)
        = constant (F := Ideal) Cert.KernelIdeal.S_ .f32 0x00000000#32 := by
  simp only [opsEdgesA]
  refine ⟨?_, ?_, ?_⟩
  · after_results_simp <;> rfl
  · after_results_simp <;> rfl
  · after_results_simp <;> rfl

set_option maxHeartbeats 4000000 in
/-- The selection between the reciprocal root and zero, and what it leaves untouched. -/
theorem where_line (U : Vals) :
    after (opsWhere (F := Ideal)) U (Proc.devRef .tc main_v14)
        = select (U (Proc.devRef .tc main_v12)) (U (Proc.devRef .tc main_v13))
            (broadcastInDim Cert.KernelIdeal.S100000 ![] Cert.KernelIdeal.Facts₀.bcast_S_S100000 (id (U (Proc.devRef .tc main_cst_2))))
    ∧ after (opsWhere (F := Ideal)) U (Proc.devRef .tc main_v3) = U (Proc.devRef .tc main_v3)
    ∧ after (opsWhere (F := Ideal)) U (Proc.devRef .tc main_v6) = U (Proc.devRef .tc main_v6) := by
  simp only [opsWhere]
  refine ⟨?_, ?_, ?_⟩
  · after_results_simp <;> rfl
  · after_results_simp
  · after_results_simp

set_option maxHeartbeats 4000000 in
/-- The third stretch leaves the edge weights over the factors, sources and destinations it finds, and the
    sources and destinations as they were. -/
theorem edgesB_weights (U : Vals) :
    after (opsEdgesB (F := Ideal)) U (Proc.devRef .tc main_v30)
        = Cert.Spec.weights (U (Proc.devRef .tc main_v14)) (U (Proc.devRef .tc main_v3)) (U (Proc.devRef .tc main_v6))
    ∧ after (opsEdgesB (F := Ideal)) U (Proc.devRef .tc main_v3) = U (Proc.devRef .tc main_v3)
    ∧ after (opsEdgesB (F := Ideal)) U (Proc.devRef .tc main_v6) = U (Proc.devRef .tc main_v6) := by
  simp only [opsEdgesB]
  refine ⟨?_, ?_, ?_⟩
  · after_results_simp <;> rfl
  · after_results_simp
  · after_results_simp

set_option maxHeartbeats 4000000 in
/-- The first 41 operations write no argument. -/
theorem edges_args (U : Vals) :
    after (opsEdges (F := Ideal)) U (Proc.devRef .tc main_arg0) = U (Proc.devRef .tc main_arg0)
    ∧ after (opsEdges (F := Ideal)) U (Proc.devRef .tc main_arg2) = U (Proc.devRef .tc main_arg2)
    ∧ after (opsEdges (F := Ideal)) U (Proc.devRef .tc main_arg3) = U (Proc.devRef .tc main_arg3)
    ∧ after (opsEdges (F := Ideal)) U (Proc.devRef .tc main_arg4) = U (Proc.devRef .tc main_arg4)
    ∧ after (opsEdges (F := Ideal)) U (Proc.devRef .tc main_arg5) = U (Proc.devRef .tc main_arg5) := by
  simp only [opsEdges]
  refine ⟨?_, ?_, ?_, ?_, ?_⟩ <;> after_results_simp

/-- After the first 41 operations: the sources, the destinations and the edge weights of the edge list. -/
theorem edges_line (U : Vals) :
    after (opsEdges (F := Ideal)) U (Proc.devRef .tc main_v3) = Cert.Spec.src (U (Proc.devRef .tc main_arg1))
    ∧ after (opsEdges (F := Ideal)) U (Proc.devRef .tc main_v6) = Cert.Spec.dst (U (Proc.devRef .tc main_arg1))
    ∧ after (opsEdges (F := Ideal)) U (Proc.devRef .tc main_v30)
        = Cert.Spec.norm (Cert.Spec.src (U (Proc.devRef .tc main_arg1))) (Cert.Spec.dst (U (Proc.devRef .tc main_arg1))) := by
  rw [opsEdges_split, Cert.RegionOp.after_append, Cert.RegionOp.after_append]
  obtain ⟨hs, hd⟩ := edgesA_ends U
  obtain ⟨h12, h13, hc2⟩ := edgesA_degree U
  obtain ⟨hw, c3, c6⟩ := where_line (after (opsEdgesA (F := Ideal)) U)
  obtain ⟨hB, b3, b6⟩ := edgesB_weights (after (opsWhere (F := Ideal)) (after (opsEdgesA (F := Ideal)) U))
  refine ⟨?_, ?_, ?_⟩
  · rw [b3, c3, hs]
  · rw [b6, c6, hd]
  · rw [hB, hw, c3, c6, h12, h13, hc2, hs, hd]
    rfl

/-! ## The layers -/

set_option maxHeartbeats 4000000 in
/-- The first projection, its aggregation and the first bias, and what they leave untouched. -/
theorem layer1_line (U : Vals) :
    after (opsLayer1 (F := Ideal)) U (Proc.devRef .tc main_v46)
        = addf (Cert.Spec.agg128 (U (Proc.devRef .tc main_v3)) (U (Proc.devRef .tc main_v6)) (U (Proc.devRef .tc main_v30))
            (Cert.KernelIdeal.Region0.product (U (Proc.devRef .tc main_arg0)) (U (Proc.devRef .tc main_arg2))))
          (broadcastInDim Cert.KernelIdeal.S100000x128 ![0, 1] Cert.KernelIdeal.Region1.rowBc
            (broadcastInDim Cert.KernelIdeal.S1x128 ![1] Cert.Spec.vecRow128 (U (Proc.devRef .tc main_arg3))))
    ∧ after (opsLayer1 (F := Ideal)) U (Proc.devRef .tc main_v3) = U (Proc.devRef .tc main_v3)
    ∧ after (opsLayer1 (F := Ideal)) U (Proc.devRef .tc main_v6) = U (Proc.devRef .tc main_v6)
    ∧ after (opsLayer1 (F := Ideal)) U (Proc.devRef .tc main_v30) = U (Proc.devRef .tc main_v30)
    ∧ after (opsLayer1 (F := Ideal)) U (Proc.devRef .tc main_arg4) = U (Proc.devRef .tc main_arg4)
    ∧ after (opsLayer1 (F := Ideal)) U (Proc.devRef .tc main_arg5) = U (Proc.devRef .tc main_arg5) := by
  simp only [opsLayer1]
  refine ⟨?_, ?_, ?_, ?_, ?_, ?_⟩
  · after_results_simp <;> rfl
  all_goals after_results_simp

set_option maxHeartbeats 4000000 in
/-- The clip at zero, and what it leaves untouched. -/
theorem relu_line (U : Vals) :
    after (opsRelu (F := Ideal)) U (Proc.devRef .tc main_v47)
        = maximumf (U (Proc.devRef .tc main_v46))
            (broadcastInDim Cert.KernelIdeal.S100000x128 ![] Cert.KernelIdeal.Region1.fillBc
              (constant (F := Ideal) Cert.KernelIdeal.S_ .f32 0x00000000#32))
    ∧ after (opsRelu (F := Ideal)) U (Proc.devRef .tc main_v3) = U (Proc.devRef .tc main_v3)
    ∧ after (opsRelu (F := Ideal)) U (Proc.devRef .tc main_v6) = U (Proc.devRef .tc main_v6)
    ∧ after (opsRelu (F := Ideal)) U (Proc.devRef .tc main_v30) = U (Proc.devRef .tc main_v30)
    ∧ after (opsRelu (F := Ideal)) U (Proc.devRef .tc main_arg4) = U (Proc.devRef .tc main_arg4)
    ∧ after (opsRelu (F := Ideal)) U (Proc.devRef .tc main_arg5) = U (Proc.devRef .tc main_arg5) := by
  simp only [opsRelu]
  refine ⟨?_, ?_, ?_, ?_, ?_, ?_⟩
  · after_results_simp <;> rfl
  all_goals after_results_simp

set_option maxHeartbeats 4000000 in
/-- The second projection, its aggregation and the second bias. -/
theorem layer2_line (U : Vals) :
    after (opsLayer2 (F := Ideal)) U (Proc.devRef .tc main_v63)
      = Cert.KernelIdeal.Region2.biased
          (Cert.Spec.agg40 (U (Proc.devRef .tc main_v3)) (U (Proc.devRef .tc main_v6)) (U (Proc.devRef .tc main_v30))
            (Host.dotGeneral (F := Ideal) (φ₁ := .f32) (φ₂ := .f32) Cert.KernelIdeal.Region1.dotAll none (U (Proc.devRef .tc main_v47)) (U (Proc.devRef .tc main_arg4))))
          (broadcastInDim Cert.KernelIdeal.S1x40 ![1] Cert.Spec.vecRow40 (U (Proc.devRef .tc main_arg5))) := by
  simp only [opsLayer2]
  after_results_simp
  rfl

set_option maxHeartbeats 8000000 in
/-- The row-wise log-softmax. -/
theorem logSoftmax_line (U : Vals) :
    after (opsLogSoftmax (F := Ideal)) U (Proc.devRef .tc main_v64)
      = Cert.KernelIdeal.Region2.logSoftmax (U (Proc.devRef .tc main_v63)) := by
  simp only [opsLogSoftmax]
  after_results_simp
  simp only [Cert.TypedRef.ofBuf_toBuf]
  rfl

/-- From any contents, the last 56 operations leave the two layers in the result buffer. -/
theorem layers_line (U : Vals) :
    after (opsLayers (F := Ideal)) U (Proc.devRef .tc main_v64)
      = Cert.Spec.layers (U (Proc.devRef .tc main_v3)) (U (Proc.devRef .tc main_v6)) (U (Proc.devRef .tc main_v30))
          (U (Proc.devRef .tc main_arg0)) (U (Proc.devRef .tc main_arg2)) (U (Proc.devRef .tc main_arg3))
          (U (Proc.devRef .tc main_arg4)) (U (Proc.devRef .tc main_arg5)) := by
  rw [opsLayers_split, Cert.RegionOp.after_append, Cert.RegionOp.after_append, Cert.RegionOp.after_append]
  obtain ⟨h46, p3, p6, p30, p4, p5⟩ := layer1_line U
  obtain ⟨h47, q3, q6, q30, q4, q5⟩ := relu_line (after (opsLayer1 (F := Ideal)) U)
  rw [logSoftmax_line, layer2_line, h47, q3, q6, q30, q4, q5, h46, p3, p6, p30, p4, p5]
  rfl

/-! ## The whole line -/

/-- The whole line, over any contents, leaves the network of the argument arrays in the result buffer. -/
theorem result_eq (U : Vals) :
    after (ops (F := Ideal)) U (Proc.devRef .tc main_v64)
      = Cert.Spec.network (U (Proc.devRef .tc main_arg0)) (U (Proc.devRef .tc main_arg1)) (U (Proc.devRef .tc main_arg2))
          (U (Proc.devRef .tc main_arg3)) (U (Proc.devRef .tc main_arg4)) (U (Proc.devRef .tc main_arg5)) := by
  rw [ops_split, Cert.RegionOp.after_append]
  obtain ⟨e0, e2, e3, e4, e5⟩ := edges_args U
  obtain ⟨hs, hd, hn⟩ := edges_line U
  rw [layers_line, hn, hs, hd, e0, e2, e3, e4, e5]
  rfl

set_option maxHeartbeats 8000000 in
/-- The whole line writes no argument. -/
theorem args_kept (U : Vals) :
    after (ops (F := Ideal)) U (Proc.devRef .tc main_arg0) = U (Proc.devRef .tc main_arg0)
    ∧ after (ops (F := Ideal)) U (Proc.devRef .tc main_arg1) = U (Proc.devRef .tc main_arg1)
    ∧ after (ops (F := Ideal)) U (Proc.devRef .tc main_arg2) = U (Proc.devRef .tc main_arg2)
    ∧ after (ops (F := Ideal)) U (Proc.devRef .tc main_arg3) = U (Proc.devRef .tc main_arg3)
    ∧ after (ops (F := Ideal)) U (Proc.devRef .tc main_arg4) = U (Proc.devRef .tc main_arg4)
    ∧ after (ops (F := Ideal)) U (Proc.devRef .tc main_arg5) = U (Proc.devRef .tc main_arg5) := by
  simp only [ops]
  refine ⟨?_, ?_, ?_, ?_, ?_, ?_⟩ <;> after_results_simp

end Cert.ReferenceIdeal.Stages

end
-- ==== Proof.lean ====
/-
  The certificate: a two-layer graph convolution computed by three pipelined kernels among host operations,
  against the same network written as host operations only.

  Both programs prepare the edges the same way (sources and destinations with self-loops, the symmetric degree
  weights) and aggregate the same way (gather at the sources, scale, add at the destinations).  They differ in the
  dense parts: where the reference multiplies whole arrays on the host, the kernel program runs a pipelined kernel
  over blocks of rows — a product with the first weight; bias, clip at zero and a product with the second weight;
  bias and a row-wise log-softmax.  On the extended reals a block's product is the whole product's block (both are
  the same sums over the shared axis), a row's bias, clip and log-softmax only read that row, and the host's extra
  maximum with −∞ and its sum started from zero change nothing.  So both programs' result buffers end at one
  function of the six argument arrays.  No step uses that the inputs are finite.

  The three frames: the two kernel programs by the generated frame certificates; the reference by its run as a
  fold of its operations, none of which writes an argument.  The idealization rewrote nothing.
-/
import proofs.«125573_j73478300500078_2_alg».proof.Defs
import proofs.«125573_j73478300500078_2_alg».proof.Proof.Gen.Kernel
import proofs.«125573_j73478300500078_2_alg».proof.Proof.Gen.Kernel.Skeleton
import proofs.«125573_j73478300500078_2_alg».proof.Proof.Gen.Kernel.Launch
import proofs.«125573_j73478300500078_2_alg».proof.Proof.Gen.Kernel.Points
import proofs.«125573_j73478300500078_2_alg».proof.Proof.Gen.Kernel.Frame
import proofs.«125573_j73478300500078_2_alg».proof.Proof.Gen.KernelIdeal
import proofs.«125573_j73478300500078_2_alg».proof.Proof.Gen.KernelIdeal.Skeleton
import proofs.«125573_j73478300500078_2_alg».proof.Proof.Gen.KernelIdeal.Launch
import proofs.«125573_j73478300500078_2_alg».proof.Proof.Gen.KernelIdeal.Points
import proofs.«125573_j73478300500078_2_alg».proof.Proof.Gen.KernelIdeal.Frame
import proofs.«125573_j73478300500078_2_alg».proof.Proof.Gen.ReferenceIdeal
import proofs.«125573_j73478300500078_2_alg».proof.Proof.Gen.Pre_finite_inputs
import proofs.«125573_j73478300500078_2_alg».proof.Proof.KernelRun
import proofs.«125573_j73478300500078_2_alg».proof.Proof.KernelValue
import proofs.«125573_j73478300500078_2_alg».proof.Proof.ReferenceLine
import proofs.«125573_j73478300500078_2_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference runs, and its arguments end as launched: no operation of its line writes one. -/
theorem frame_referenceIdeal : Cert.frame_ReferenceIdeal := fun m ρ _ =>
  (θ_run Cert.ReferenceIdeal.defs _ _).mono (fun _ h c => by
    obtain ⟨k0, k1, k2, k3, k4, k5⟩ := Cert.ReferenceIdeal.Stages.args_kept (launchContents m c)
    exact ⟨(h c _).trans k0, (h c _).trans k1, (h c _).trans k2, (h c _).trans k3, (h c _).trans k4, (h c _).trans k5⟩)
    (Cert.ReferenceIdeal.Line.run_fold (F := Ideal) m ρ)

theorem preserves : Cert.preserves_Kernel_KernelIdeal := trivial

/-- Both result buffers end at the network of the argument arrays, which agree. -/
theorem algebraic : Cert.algebraic_KernelIdeal_ReferenceIdeal := by
  intro m ρ m' ρ' _ hagree
  refine ⟨fun c => Cert.Spec.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result_eq m ρ c), (h c).2⟩)
      (Cert.KernelIdeal.Run.run_main (F := Ideal) m ρ)
  · refine (θ_run Cert.ReferenceIdeal.defs _ _).mono (fun _ h c => ?_)
      (Cert.ReferenceIdeal.Line.run_fold (F := Ideal) m' ρ')
    obtain ⟨k0, k1, k2, k3, k4, k5⟩ := Cert.ReferenceIdeal.Stages.args_kept (launchContents m' c)
    obtain ⟨a0, a1, a2, a3, a4, a5⟩ := hagree c
    refine ⟨?_, (h c _).trans k0, (h c _).trans k1, (h c _).trans k2, (h c _).trans k3, (h c _).trans k4, (h c _).trans k5⟩
    refine (h c _).trans ((Cert.ReferenceIdeal.Stages.result_eq (launchContents m' c)).trans ?_)
    show Cert.Spec.network
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
